-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048x1 : Shape := ⟨3, ![16, 2048, 1]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x2048x1 : S_.BroadcastsInDim S16x2048x1 (![] : Fin 0 → Fin S16x2048x1.rank)
  reducesTo_S16x2048x1_S_d0_1_2 : S16x2048x1.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : FVec F S16x2048x1 .f32) (main_arg3 : FVec F S1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S16x2048x1 .f32 := Host.absf main_arg2
  let main_cst_2 : FVec F S_ .f32 := constant S_ .f32 0x7F800000#32
  let main_v10 : FVec F S16x2048x1 .f32 := broadcastInDim S16x2048x1 ![] bcast_S_S16x2048x1 main_cst_2
  let main_v11 : IVec S16x2048x1 1 := cmpf .olt main_v9 main_v10
  let main_c_3 : IVec S_ 1 := constantI S_ 1 1#1
  let main_v12 : IVec S_ 1 := (fun x v => Host.reduce IntOp.andi x v reducesTo_S16x2048x1_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S16x2048x1024 : Shape := ⟨3, ![16, 2048, 1024]⟩
abbrev S16x2048x1 : Shape := ⟨3, ![16, 2048, 1]⟩
abbrev S1024x1024 : Shape := ⟨2, ![1024, 1024]⟩
abbrev S16x1x2048 : Shape := ⟨3, ![16, 1, 2048]⟩
abbrev S16x2048x3072 : Shape := ⟨3, ![16, 2048, 3072]⟩
abbrev S1x256x1024 : Shape := ⟨3, ![1, 256, 1024]⟩
abbrev S1x2048x1024 : Shape := ⟨3, ![1, 2048, 1024]⟩
abbrev S1x2048x1 : Shape := ⟨3, ![1, 2048, 1]⟩
abbrev S1x1x2048 : Shape := ⟨3, ![1, 1, 2048]⟩
abbrev S1x256x3072 : Shape := ⟨3, ![1, 256, 3072]⟩
abbrev S2048x1024 : Shape := ⟨2, ![2048, 1024]⟩
abbrev S1x1024 : Shape := ⟨2, ![1, 1024]⟩
abbrev S2048x1 : Shape := ⟨2, ![2048, 1]⟩
abbrev S1024 : Shape := ⟨1, ![1024]⟩
abbrev S256x1024 : Shape := ⟨2, ![256, 1024]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1, .f32⟩
  | .hbm, ⟨3, _⟩ => ⟨S1024x1024, .f32⟩
  | .hbm, ⟨4, _⟩ => ⟨S16x1x2048, .f32⟩
  | .hbm, ⟨5, _⟩ => ⟨S1024x1024, .bf16⟩
  | .hbm, ⟨6, _⟩ => ⟨S16x2048x3072, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x2048x1024, .f32⟩
  | .local _ .vmem, ⟨4, _⟩ => ⟨S1x2048x1024, .f32⟩
  | .local _ .vmem, ⟨5, _⟩ => ⟨S1x2048x1, .f32⟩
  | .local _ .vmem, ⟨6, _⟩ => ⟨S1x2048x1, .f32⟩
  | .local _ .vmem, ⟨7, _⟩ => ⟨S1x1x2048, .f32⟩
  | .local _ .vmem, ⟨8, _⟩ => ⟨S1x1x2048, .f32⟩
  | .local _ .vmem, ⟨9, _⟩ => ⟨S1x256x3072, .f32⟩
  | .local _ .vmem, ⟨10, _⟩ => ⟨S1x256x3072, .f32⟩
  | .local _ .vmem, ⟨11, _⟩ => ⟨S2048x1024, .bf16⟩
  | .local _ .vmem, ⟨12, _⟩ => ⟨S1x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S16x2048x1_S16x1x2048_0_2_1 : S16x2048x1.Transposes [0, 2, 1] S16x1x2048
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x1024 : S2048x1.Broadcasts S2048x1024
  reduces_S2048x1024_S1024 : S2048x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S1x256x3072_S1x256x1024_0_0_0 : ∀ a, (![0, 0, 0] : Fin 3 → Nat) a + S1x256x1024.size a ≤ S1x256x3072.size a
  shapeCasts_S256x1024_S1x256x1024 : S256x1024.ShapeCasts S1x256x1024
  inb_S1x256x3072_S1x256x1024_0_0_1024 : ∀ a, (![0, 0, 1024] : Fin 3 → Nat) a + S1x256x1024.size a ≤ S1x256x3072.size a
  broadcasts_S1x1024_S256x1024 : S1x1024.Broadcasts S256x1024
  inb_S1x256x3072_S1x256x1024_0_0_2048 : ∀ a, (![0, 0, 2048] : Fin 3 → Nat) a + S1x256x1024.size a ≤ S1x256x3072.size a
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x1024.size a
  hwx0_2 : ∀ i : grid0.Coords, EltTy.bits .f32 = 32 ∨ (Rect.block (s := S16x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S16x2048x1.size a
  hwx0_3 : ∀ i : grid0.Coords, EltTy.bits .f32 = 32 ∨ (Rect.block (s := S16x2048x1) S1x2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S16x1x2048.size a
  hwx0_4 : ∀ i : grid0.Coords, EltTy.bits .f32 = 32 ∨ (Rect.block (s := S16x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3072.size a ≤ S16x2048x3072.size a
  hwx0_5 : ∀ i : grid0.Coords, EltTy.bits .f32 = 32 ∨ (Rect.block (s := S16x2048x3072) S1x256x3072.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048x1 : Shape := ⟨3, ![16, 2048, 1]⟩
abbrev S1024x1024 : Shape := ⟨2, ![1024, 1024]⟩
abbrev S_ : Shape := ⟨0, ![]⟩
abbrev S16x1024 : Shape := ⟨2, ![16, 1024]⟩
abbrev S16x1x1024 : Shape := ⟨3, ![16, 1, 1024]⟩
abbrev S16x2048x2048 : Shape := ⟨3, ![16, 2048, 2048]⟩
abbrev S16x1x2048 : Shape := ⟨3, ![16, 1, 2048]⟩
abbrev S16x2048 : Shape := ⟨2, ![16, 2048]⟩
abbrev S16x2048x3072 : Shape := ⟨3, ![16, 2048, 3072]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1, .f32⟩
  | .hbm, ⟨3, _⟩ => ⟨S1024x1024, .f32⟩
  | .hbm, ⟨4, _⟩ => ⟨S_, .f32⟩
  | .hbm, ⟨5, _⟩ => ⟨S16x2048x1, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x1024, .f32⟩
  | .hbm, ⟨14, _⟩ => ⟨S16x1x1024, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S16x1x2048, .f32⟩
  | .hbm, ⟨27, _⟩ => ⟨S_, .f32⟩
  | .hbm, ⟨28, _⟩ => ⟨S16x1x2048, .f32⟩
  | .hbm, ⟨29, _⟩ => ⟨S16x1x2048, .f32⟩
  | .hbm, ⟨30, _⟩ => ⟨S_, .f32⟩
  | .hbm, ⟨31, _⟩ => ⟨S16x1x2048, .f32⟩
  | .hbm, ⟨32, _⟩ => ⟨S16x1x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S_, .f32⟩
  | .hbm, ⟨38, _⟩ => ⟨S16x2048, .f32⟩
  | .hbm, ⟨39, _⟩ => ⟨S16x2048, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S16x2048x1024, .f32⟩
  | .hbm, ⟨50, _⟩ => ⟨S16x2048x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  reducesTo_S16x2048x1024_S16x1024_d1 : S16x2048x1024.ReducesTo [1] S16x1024
  h_S_ : 0 < S_.numel
  bcast_S16x1024_S16x1x1024_0_2 : S16x1024.BroadcastsInDim S16x1x1024 (![0, 2] : Fin 2 → Fin S16x1x1024.rank)
  slices_S16x2048x1024_S16x2048x1_0_0_0 : S16x2048x1024.Slices ![0, 0, 0] S16x2048x1
  bcast_S16x1x1024_S16x2048x1024_0_1_2 : S16x1x1024.BroadcastsInDim S16x2048x1024 (![0, 1, 2] : Fin 3 → Fin S16x2048x1024.rank)
  bcast_S_S16x2048x2048 : S_.BroadcastsInDim S16x2048x2048 (![] : Fin 0 → Fin S16x2048x2048.rank)
  transposes_S16x2048x1_S16x1x2048_0_2_1 : S16x2048x1.Transposes [0, 2, 1] S16x1x2048
  bcast_S_S16x1x2048 : S_.BroadcastsInDim S16x1x2048 (![] : Fin 0 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  concatenates_S16x2048x1024_S16x2048x1024_S16x2048x1024_S16x2048x3072_d2 : Shape.Concatenates [S16x2048x1024, S16x2048x1024, S16x2048x1024] S16x2048x3072 2
  dot_S16x2048x1024_S1024x1024_S16x2048x1024_2_0_01_1_n_n_wf : DotDims.WF S16x2048x1024 S1024x1024 S16x2048x1024 [2] [0] [0, 1] [1] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.CaseValues.lean ====
/-
  What each control case of the body leaves behind, as values of the blocks it loads.

  The body stores the output block in three lane ranges — the attention output, the query rows, the pooled maximum repeated down
  the rows — so the block is the three payloads laid side by side (`blockOf`). At a batch's first query tile the body first
  stores the batch's values and their masked maximum into the two carried scratches and then reads them back; at every other
  tile it reads what the scratches already hold. A load of a whole buffer reads its contents, and a load of what one whole
  store just left reads that store's payload.
-/
import proofs.«165789_j10299331576088_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block `[1, 256, 3072]` holding attention output `o` in lanes `[0, 1024)`, query rows `q` in `[1024, 2048)` and the
    pooled row `mv`, repeated down the rows, in `[2048, 3072)`. -/
def blockOf (o q : FVec F S256x1024 .f32) (mv : Vec F S1x1024 .f32) : Vec F S1x256x3072 .f32 :=
  View.canon
    [⟨Rect.unit ![0, 0, 2048] ![1, 256, 1024] inb_S1x256x3072_S1x256x1024_0_0_2048, k0_pay3 mv⟩,
     ⟨Rect.unit ![0, 0, 1024] ![1, 256, 1024] inb_S1x256x3072_S1x256x1024_0_0_1024, k0_pay2 q⟩,
     ⟨Rect.unit ![0, 0, 0] ![1, 256, 1024] inb_S1x256x3072_S1x256x1024_0_0_0, k0_pay1 o⟩]

/-- At a batch's first tile the values scratch is left holding the stored copy of the values block. -/
theorem values_first (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1x2048x1024 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x256x3072 .f32) (harg7 : arg7.IsWhole) (arg8 : Memref sig .tc .vmem S2048x1024 .bf16) (harg8 : arg8.IsWhole) (arg9 : Memref sig .tc .vmem S1x1024 .f32) (harg9 : arg9.IsWhole) (hc0 : cond0_0 i) (x0 : Vec F S1x256x1024 .f32) (x1 : Vec F S1024x1024 .bf16) (x2 : Vec F S1x2048x1024 .f32) (x3 : Vec F S1x2048x1 .f32) (x4 : Vec F S1x1x2048 .f32) :
    sout0_A_0 c i arg2 harg2 arg3 harg3 arg4 harg4 arg5 harg5 arg6 harg6 arg7 harg7 arg8 harg8 arg9 harg9 hc0 x0 x1 x2 x3 x4 = k0_pay5 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg4.read_unread, View.ld_unit_zero (S := S1x2048x1024) hz3]

/-- At a batch's first tile the pooled scratch is left holding the masked maximum of the values and mask blocks. -/
theorem pooled_first (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1x2048x1024 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x256x3072 .f32) (harg7 : arg7.IsWhole) (arg8 : Memref sig .tc .vmem S2048x1024 .bf16) (harg8 : arg8.IsWhole) (arg9 : Memref sig .tc .vmem S1x1024 .f32) (harg9 : arg9.IsWhole) (hc0 : cond0_0 i) (x0 : Vec F S1x256x1024 .f32) (x1 : Vec F S1024x1024 .bf16) (x2 : Vec F S1x2048x1024 .f32) (x3 : Vec F S1x2048x1 .f32) (x4 : Vec F S1x1x2048 .f32) :
    sout0_A_1 c i arg2 harg2 arg3 harg3 arg4 harg4 arg5 harg5 arg6 harg6 arg7 harg7 arg8 harg8 arg9 harg9 hc0 x0 x1 x2 x3 x4 = k0_pay6 x2 x3 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg4.read_unread, harg5.read_unread, View.ld_unit_zero (S := S1x2048x1024) hz3,
    View.ld_unit_zero (S := S1x2048x1) hz3]

/-- At a batch's first tile the output block is built from the scratches' fresh contents. -/
theorem block_first (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1x2048x1024 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x256x3072 .f32) (harg7 : arg7.IsWhole) (arg8 : Memref sig .tc .vmem S2048x1024 .bf16) (harg8 : arg8.IsWhole) (arg9 : Memref sig .tc .vmem S1x1024 .f32) (harg9 : arg9.IsWhole) (hc0 : cond0_0 i) (x0 : Vec F S1x256x1024 .f32) (x1 : Vec F S1024x1024 .bf16) (x2 : Vec F S1x2048x1024 .f32) (x3 : Vec F S1x2048x1 .f32) (x4 : Vec F S1x1x2048 .f32) :
    out0_A_5 c i arg2 harg2 arg3 harg3 arg4 harg4 arg5 harg5 arg6 harg6 arg7 harg7 arg8 harg8 arg9 harg9 hc0 x0 x1 x2 x3 x4
      = blockOf (k0_pay8 x0 x1 (k0_pay5 x2) x4) (k0_pay7 x0) (k0_pay6 x2 x3) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  unfold blockOf
  simp only [View.readAt_eq_ld, harg2.read_unread, harg3.read_unread, harg4.read_unread, harg5.read_unread, harg6.read_unread,
    View.ld_unit_zero (S := S1x256x1024) hz3, View.ld_unit_zero (S := S1024x1024) hz2, View.ld_unit_zero (S := S1x2048x1024) hz3,
    View.ld_unit_zero (S := S1x2048x1) hz3, View.ld_unit_zero (S := S1x1x2048) hz3,
    View.readCov_unit_zero (S := S2048x1024) _ hz2, View.readCov_unit_zero (S := S1x1024) _ hz2]

/-- At every other tile the output block is built from what the scratches hold. -/
theorem block_later (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1x2048x1024 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x256x3072 .f32) (harg7 : arg7.IsWhole) (arg8 : Memref sig .tc .vmem S2048x1024 .bf16) (harg8 : arg8.IsWhole) (arg9 : Memref sig .tc .vmem S1x1024 .f32) (harg9 : arg9.IsWhole) (hc0 : ¬cond0_0 i) (x0 : Vec F S1x256x1024 .f32) (x1 : Vec F S1024x1024 .bf16) (x2 : Vec F S1x2048x1024 .f32) (x3 : Vec F S1x2048x1 .f32) (x4 : Vec F S1x1x2048 .f32) (xs0 : Vec F S2048x1024 .bf16) (xs1 : Vec F S1x1024 .f32) :
    out0_B_5 c i arg2 harg2 arg3 harg3 arg4 harg4 arg5 harg5 arg6 harg6 arg7 harg7 arg8 harg8 arg9 harg9 hc0 x0 x1 x2 x3 x4 xs0 xs1
      = blockOf (k0_pay8 x0 x1 xs0 x4) (k0_pay7 x0) xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  sl_unfold_words
  unfold blockOf
  simp only [View.readAt_eq_ld, harg2.read_unread, harg3.read_unread, harg6.read_unread, harg8.read_unread, harg9.read_unread,
    View.ld_unit_zero (S := S1x256x1024) hz3, View.ld_unit_zero (S := S1024x1024) hz2, View.ld_unit_zero (S := S2048x1024) hz2,
    View.ld_unit_zero (S := S1x1x2048) hz3, View.ld_unit_zero (S := S1x1024) hz2]

end Cert.KernelIdeal.Cases

end
-- ==== Proof.BlockLanes.lean ====
/-
  The output block read at a lane. The block's three stores tile its 3072 lanes in ranges of 1024: a lane below 1024 holds the
  attention output there, a lane in `[1024, 2048)` the query rows at the lane less 1024, a lane from 2048 on the pooled row at the
  lane less 2048 (the same in every row of the block). A store's payload only adds or repeats unit axes around its operand.
-/
import proofs.«165789_j10299331576088_2_alg».proof.Proof.CaseValues
import Idealize.ShloMosaic.Lib.ValueIdx
import Idealize.ShloMosaic.Lib.ValueLayout

noncomputable section

open Idealize.ShloMosaic Idealize.ShloMosaic.ValueIdx

namespace Cert.KernelIdeal.Cases

open Cert.KernelIdeal Cert.KernelIdeal.Gen

variable {F : FTy → Type} [FloatOps F]

theorem blockOf_low (o q : FVec F S256x1024 .f32) (mv : Vec F S1x1024 .f32) (u : Fin 1) (p : Fin 256) (c : Fin 3072)
    (h : c.val < 1024) : blockOf o q mv (ix3 u p c) = o (ix2 p (⟨c.val, h⟩ : Fin 1024)) := by
  unfold blockOf
  rw [View.canon_cons_of_not_mem _ _ (by
      rw [Rect.mem_set_unit]; intro hm; have h2 : 2048 ≤ c.val := (hm 2).1; omega),
    View.canon_cons_of_not_mem _ _ (by
      rw [Rect.mem_set_unit]; intro hm; have h2 : 1024 ≤ c.val := (hm 2).1; omega)]
  have he : (ix3 u p c : S1x256x3072.Idx)
      = (Rect.unit (s := S1x256x3072) ![0, 0, 0] ![1, 256, 1024] inb_S1x256x3072_S1x256x1024_0_0_0).emb
          (ix3 u p (⟨c.val, h⟩ : Fin 1024)) := funext fun a => Fin.ext (by
    match a with
    | ⟨0, _⟩ => show u.val = 0 + 1 * u.val; omega
    | ⟨1, _⟩ => show p.val = 0 + 1 * p.val; omega
    | ⟨2, _⟩ => show c.val = 0 + 1 * c.val; omega)
  rw [he, View.canon_cons_emb]
  unfold k0_pay1
  exact shapeCast_ab_1ab_apply o _ u p _

theorem blockOf_mid (o q : FVec F S256x1024 .f32) (mv : Vec F S1x1024 .f32) (u : Fin 1) (p : Fin 256) (c : Fin 3072)
    (h1 : ¬c.val < 1024) (h2 : c.val < 2048) :
    blockOf o q mv (ix3 u p c) = q (ix2 p (⟨c.val - 1024, by omega⟩ : Fin 1024)) := by
  unfold blockOf
  rw [View.canon_cons_of_not_mem _ _ (by
      rw [Rect.mem_set_unit]; intro hm; have h2 : 2048 ≤ c.val := (hm 2).1; omega)]
  have he : (ix3 u p c : S1x256x3072.Idx)
      = (Rect.unit (s := S1x256x3072) ![0, 0, 1024] ![1, 256, 1024] inb_S1x256x3072_S1x256x1024_0_0_1024).emb
          (ix3 u p (⟨c.val - 1024, by omega⟩ : Fin 1024)) := funext fun a => Fin.ext (by
    match a with
    | ⟨0, _⟩ => show u.val = 0 + 1 * u.val; omega
    | ⟨1, _⟩ => show p.val = 0 + 1 * p.val; omega
    | ⟨2, _⟩ => show c.val = 1024 + 1 * (c.val - 1024); omega)
  rw [he, View.canon_cons_emb]
  unfold k0_pay2
  exact shapeCast_ab_1ab_apply q _ u p _

theorem blockOf_high (o q : FVec F S256x1024 .f32) (mv : Vec F S1x1024 .f32) (u : Fin 1) (p : Fin 256) (c : Fin 3072)
    (h2 : ¬c.val < 2048) :
    blockOf o q mv (ix3 u p c) = mv (ix2 (0 : Fin 1) (⟨c.val - 2048, by have := c.isLt; omega⟩ : Fin 1024)) := by
  unfold blockOf
  have he : (ix3 u p c : S1x256x3072.Idx)
      = (Rect.unit (s := S1x256x3072) ![0, 0, 2048] ![1, 256, 1024] inb_S1x256x3072_S1x256x1024_0_0_2048).emb
          (ix3 u p (⟨c.val - 2048, by have := c.isLt; omega⟩ : Fin 1024)) := funext fun a => Fin.ext (by
    match a with
    | ⟨0, _⟩ => show u.val = 0 + 1 * u.val; omega
    | ⟨1, _⟩ => show p.val = 0 + 1 * p.val; omega
    | ⟨2, _⟩ => show c.val = 2048 + 1 * (c.val - 2048); omega)
  rw [he, View.canon_cons_emb]
  unfold k0_pay3
  rw [shapeCast_ab_1ab_apply, broadcastTo_1b_ab_apply, shapeCast_self]

end Cert.KernelIdeal.Cases

end
-- ==== Proof.Attention.lean ====
/-
  Masked single-query attention on the extended reals, and the array both programs compute.

  One batch has keys and values `V : 2048 × 1024`, a key mask `μ : 2048` (1 keeps a key, 0 drops it) and shares a
  projection `W : 1024 × 1024`. A key with mask value `μ k` is lowered by `penalty (μ k) = (1 − μ k) · 10¹⁰`. For one
  query row `q : 1024`:
    pooled V μ e  = max over keys k of (V k e − penalty (μ k)), from −∞                (no query in it)
    score k       = (∑ e, (∑ d, q d · W d e) · V k e) / 10 − penalty (μ k)
    attended c    = ∑ k, (exp (score k − max score) / ∑ k', exp (score k' − max score)) · V k c
  The result [16, 2048, 3072] at batch `b`, query row `r` holds three lane ranges: [0, 1024) `attended`,
  [1024, 2048) the query row itself, [2048, 3072) `pooled` (the same for every row of the batch).
  Every float literal stays the word the programs print; none is evaluated.
-/
import Idealize.ShloMosaic.PureOps.Ideal
import Idealize.ShloMosaic.Lib.ValueIdx

noncomputable section

namespace Cert.Attention

open Idealize.ShloMosaic Idealize.ShloMosaic.ValueIdx

/-- What a key with mask value `μ` is lowered by: `(1 − μ) · 10¹⁰`. -/
def penalty (μ : EReal) : EReal :=
  (Ideal.ofBits .f32 0x3F800000#32 - μ) * Ideal.ofBits .f32 0x501502F9#32

/-- The masked maximum over the keys of value lane `e`, from `−∞`. -/
def pooled (V : Fin 2048 → Fin 1024 → EReal) (μ : Fin 2048 → EReal) (e : Fin 1024) : EReal :=
  (Finset.univ : Finset (Fin 2048)).fold max (Ideal.ofBits .f32 0xFF800000#32) (fun k => V k e - penalty (μ k))

/-- The query row through the projection. -/
def projected (q : Fin 1024 → EReal) (W : Fin 1024 → Fin 1024 → EReal) (e : Fin 1024) : EReal :=
  ∑ d : Fin 1024, q d * W d e

/-- The masked, scaled score of key `k`. -/
def score (q : Fin 1024 → EReal) (W : Fin 1024 → Fin 1024 → EReal) (V : Fin 2048 → Fin 1024 → EReal)
    (μ : Fin 2048 → EReal) (k : Fin 2048) : EReal :=
  Ideal.div (∑ e : Fin 1024, projected q W e * V k e) (Ideal.ofBits .f32 0x41200000#32) - penalty (μ k)

/-- The largest score, from `−∞`. -/
def peak (q : Fin 1024 → EReal) (W : Fin 1024 → Fin 1024 → EReal) (V : Fin 2048 → Fin 1024 → EReal)
    (μ : Fin 2048 → EReal) : EReal :=
  (Finset.univ : Finset (Fin 2048)).fold max (Ideal.ofBits .f32 0xFF800000#32) (score q W V μ)

/-- The unnormalized weight of key `k`. -/
def unnorm (q : Fin 1024 → EReal) (W : Fin 1024 → Fin 1024 → EReal) (V : Fin 2048 → Fin 1024 → EReal)
    (μ : Fin 2048 → EReal) (k : Fin 2048) : EReal :=
  Ideal.exp (score q W V μ k - peak q W V μ)

/-- The sum of the unnormalized weights. -/
def mass (q : Fin 1024 → EReal) (W : Fin 1024 → Fin 1024 → EReal) (V : Fin 2048 → Fin 1024 → EReal)
    (μ : Fin 2048 → EReal) : EReal :=
  ∑ k : Fin 2048, unnorm q W V μ k

/-- The attention output of the query row at value lane `c`. -/
def attended (q : Fin 1024 → EReal) (W : Fin 1024 → Fin 1024 → EReal) (V : Fin 2048 → Fin 1024 → EReal)
    (μ : Fin 2048 → EReal) (c : Fin 1024) : EReal :=
  ∑ k : Fin 2048, Ideal.div (unnorm q W V μ k) (mass q W V μ) * V k c

/-! ## The arrays -/

abbrev SRows : Shape := ⟨3, ![16, 2048, 1024]⟩
abbrev SMask : Shape := ⟨3, ![16, 2048, 1]⟩
abbrev SProj : Shape := ⟨2, ![1024, 1024]⟩
abbrev SOut : Shape := ⟨3, ![16, 2048, 3072]⟩

/-- Query row `r` of batch `b`. -/
def rowOf (q : SRows.Idx → EReal) (b : Fin 16) (r : Fin 2048) : Fin 1024 → EReal := fun d => q (ix3 b r d)
/-- The keys and values of batch `b`. -/
def valuesOf (v : SRows.Idx → EReal) (b : Fin 16) : Fin 2048 → Fin 1024 → EReal := fun k e => v (ix3 b k e)
/-- The key mask of batch `b`. -/
def maskOf (μ : SMask.Idx → EReal) (b : Fin 16) : Fin 2048 → EReal := fun k => μ (ix3 b k (0 : Fin 1))
/-- The projection as a matrix. -/
def matrixOf (W : SProj.Idx → EReal) : Fin 1024 → Fin 1024 → EReal := fun d e => W (ix2 d e)

/-- The result at batch `b`, query row `r`, lane `c` of 3072: the three lane ranges. -/
def resultAt (q v : SRows.Idx → EReal) (μ : SMask.Idx → EReal) (W : SProj.Idx → EReal)
    (b : Fin 16) (r : Fin 2048) (c : Fin 3072) : EReal :=
  if h1 : c.val < 1024 then attended (rowOf q b r) (matrixOf W) (valuesOf v b) (maskOf μ b) ⟨c.val, h1⟩
  else if h2 : c.val < 2048 then q (ix3 b r (⟨c.val - 1024, by omega⟩ : Fin 1024))
  else pooled (valuesOf v b) (maskOf μ b) ⟨c.val - 2048, by have := c.isLt; omega⟩

/-- The whole result array. -/
def result (q v : SRows.Idx → EReal) (μ : SMask.Idx → EReal) (W : SProj.Idx → EReal) : SOut.Idx → EReal :=
  fun j => resultAt q v μ W (j 0) (j 1) (j 2)

theorem result_apply (q v : SRows.Idx → EReal) (μ : SMask.Idx → EReal) (W : SProj.Idx → EReal)
    (b : Fin 16) (r : Fin 2048) (c : Fin 3072) : result q v μ W (ix3 b r c) = resultAt q v μ W b r c := rfl

theorem resultAt_low (q v : SRows.Idx → EReal) (μ : SMask.Idx → EReal) (W : SProj.Idx → EReal)
    (b : Fin 16) (r : Fin 2048) (c : Fin 3072) (h1 : c.val < 1024) :
    resultAt q v μ W b r c = attended (rowOf q b r) (matrixOf W) (valuesOf v b) (maskOf μ b) ⟨c.val, h1⟩ := by
  unfold resultAt; rw [dif_pos h1]

theorem resultAt_mid (q v : SRows.Idx → EReal) (μ : SMask.Idx → EReal) (W : SProj.Idx → EReal)
    (b : Fin 16) (r : Fin 2048) (c : Fin 3072) (h1 : ¬c.val < 1024) (h2 : c.val < 2048) :
    resultAt q v μ W b r c = q (ix3 b r (⟨c.val - 1024, by omega⟩ : Fin 1024)) := by
  unfold resultAt; rw [dif_neg h1, dif_pos h2]

theorem resultAt_high (q v : SRows.Idx → EReal) (μ : SMask.Idx → EReal) (W : SProj.Idx → EReal)
    (b : Fin 16) (r : Fin 2048) (c : Fin 3072) (h2 : ¬c.val < 2048) :
    resultAt q v μ W b r c = pooled (valuesOf v b) (maskOf μ b) ⟨c.val - 2048, by have := c.isLt; omega⟩ := by
  have h1 : ¬c.val < 1024 := by omega
  unfold resultAt; rw [dif_neg h1, dif_neg h2]

end Cert.Attention

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.TileStores.lean ====
/-
  What the per-batch prologue stores, read at an index on the extended reals: the copy of the batch's values, and the
  masked maximum over the keys of each value lane.
-/
import proofs.«165789_j10299331576088_2_alg».proof.Proof.Gen.KernelIdeal.Skeleton
import proofs.«165789_j10299331576088_2_alg».proof.Proof.Attention
import proofs.«165789_j10299331576088_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Attention

/-- The stored copy of the values block at key `k`, lane `e` is the block's entry there (a change of format is the identity). -/
theorem stored_values (x2 : Vec Ideal S1x2048x1024 .f32) (k : Fin 2048) (e : Fin 1024) :
    (k0_pay5 (F := Ideal) x2 (ix2 k e) : EReal) = x2 (ix3 (0 : Fin 1) k e) := by
  unfold k0_pay5 k0_pay4
  dsimp only
  rw [shapeCast_self, truncf_apply]
  exact shapeCast_1ab_ab_apply x2 _ k e

/-- The coordinate the row reduction inserts: key `k` over lane `e`. -/
theorem lift_rows (e : Fin 1024) (k : Fin 2048) :
    reduces_S2048x1024_S1024.lift (ix1 e) k = (ix2 k e : S2048x1024.Idx) :=
  funext fun a => Fin.ext (by match a with | ⟨0, _⟩ => rfl | ⟨1, _⟩ => rfl)

/-- A maximum over the rows of a `[2048, 1024]` tile, from `−∞`, at lane `e`: the fold of `max` over the keys. -/
theorem colmax_apply (v : FVec Ideal S2048x1024 .f32) (hφ : FKind.Formats .f32)
    (hacc : (0xFF800000#32 : BitVec 32) = FKind.maximumf.neutral .f32 hφ) (e : Fin 1024) :
    multiReduction .maximumf [0] S1024 v 0xFF800000#32 reduces_S2048x1024_S1024 hφ hacc (ix1 e)
      = (Finset.univ : Finset (Fin 2048)).fold max (Ideal.ofBits .f32 0xFF800000#32) (fun k => v (ix2 k e)) := by
  refine (Ideal.multiReduction_maximumf_single v _ _ hφ hacc (ix1 e)).trans ?_
  show (Finset.univ : Finset (Fin 2048)).fold max _ _ = _
  refine Finset.fold_congr fun k _ => ?_
  exact congrArg v (lift_rows e k)

/-- The stored maximum at lane `e` is the masked maximum over the keys of the values block. -/
theorem stored_pool (x2 : Vec Ideal S1x2048x1024 .f32) (x3 : Vec Ideal S1x2048x1 .f32) (u : Fin 1) (e : Fin 1024) :
    (k0_pay6 (F := Ideal) x2 x3 (ix2 u e) : EReal)
      = pooled (fun k e => x2 (ix3 (0 : Fin 1) k e)) (fun k => x3 (ix3 (0 : Fin 1) k (0 : Fin 1))) e := by
  unfold k0_pay6 k0_pay4
  dsimp only
  rw [shapeCast_self, shapeCast_a_1a_apply]
  refine (colmax_apply _ _ _ e).trans ?_
  unfold pooled
  refine Finset.fold_congr fun k _ => ?_
  dsimp only
  rw [subf_apply, shapeCast_1ab_ab_apply, Cert.LibLayout.broadcastTo_a1_ab_apply, mulf_apply,
    subf_apply, broadcast_apply, broadcast_apply, shapeCast_1ab_ab_apply]
  rfl

end Cert.KernelIdeal.Tile

end
-- ==== Proof.TileProducts.lean ====
/-
  Reductions along a row and the three matrix products of the attention tile, read at an index on the extended reals.
  A maximum along a row of a `[256, 2048]` tile is the fold of `max` over the 2048 keys from the reduction's starting value, a sum
  along a row is the plain sum, and a matrix product into a zero accumulator is the sum of the operands' products over its one
  contracted axis: the rows through the projection contract the projection's rows, the projected rows against the keys contract
  both operands' lanes, the weights against the values contract the keys.
-/
import proofs.«165789_j10299331576088_2_alg».proof.Proof.Gen.KernelIdeal.Skeleton
import proofs.«165789_j10299331576088_2_alg».proof.Proof.Attention
import proofs.«165789_j10299331576088_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Attention

/-! ## Reductions along a row of a `[256, 2048]` tile -/

/-- The coordinate a reduction along the keys inserts: key `k` in row `p`. -/
theorem lift_keys (p : Fin 256) (k : Fin 2048) :
    reduces_S256x2048_S256.lift (ix1 p) k = (ix2 p k : S256x2048.Idx) :=
  funext fun a => Fin.ext (by match a with | ⟨0, _⟩ => rfl | ⟨1, _⟩ => rfl)

/-- The maximum of row `p`, from `−∞`. -/
def rowPeak (s : FVec Ideal S256x2048 .f32) (p : Fin 256) : EReal :=
  (Finset.univ : Finset (Fin 2048)).fold max (Ideal.ofBits .f32 0xFF800000#32) (fun k => s (ix2 p k))

theorem rowmax_apply (s : FVec Ideal S256x2048 .f32) (hφ : FKind.Formats .f32)
    (hacc : (0xFF800000#32 : BitVec 32) = FKind.maximumf.neutral .f32 hφ) (p : Fin 256) :
    multiReduction .maximumf [1] S256 s 0xFF800000#32 reduces_S256x2048_S256 hφ hacc (ix1 p) = rowPeak s p := by
  refine (Ideal.multiReduction_maximumf_single s _ _ hφ hacc (ix1 p)).trans ?_
  show (Finset.univ : Finset (Fin 2048)).fold max _ _ = _
  unfold rowPeak
  refine Finset.fold_congr fun k _ => ?_
  exact congrArg s (lift_keys p k)

theorem rowsum_apply (s : FVec Ideal S256x2048 .f32) (hφ : FKind.Formats .f32)
    (hacc : (0x00000000#32 : BitVec 32) = FKind.add.neutral .f32 hφ) (p : Fin 256) :
    multiReduction .add [1] S256 s 0x00000000#32 reduces_S256x2048_S256 hφ hacc (ix1 p) = ∑ k : Fin 2048, s (ix2 p k) := by
  refine (Ideal.multiReduction_add_single s _ _ hφ hacc (ix1 p)).trans ?_
  show ∑ k : Fin 2048, _ = _
  refine Finset.sum_congr rfl fun k _ => ?_
  exact congrArg s (lift_keys p k)

theorem exp_apply {s : Shape} {φ : FTy} (a : FVec Ideal s φ) (i : s.Idx) : exp a i = Ideal.exp (a i) := rfl

/-! ## The three matrix products, each the sum over its contracted axis -/

theorem project_lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem project_rhs_lane (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Rows through the projection: `∑ d, l (p, d) · r (d, e)`. -/
theorem project_apply (l : FVec Ideal S256x1024 .bf16) (r : FVec Ideal S1024x1024 .bf16) (p : Fin 256) (e : Fin 1024) :
    matmul dot_S256x1024_S1024x1024_S256x1024_1_0_0_1_n_n none l r (constant S256x1024 .f32 0x00000000#32) (ix2 p e)
      = ∑ d : Fin 1024, l (ix2 p d) * r (ix2 d e) := by
  simp only [matmul]
  rw [Ideal.matmul_constant_zero_apply, ← Equiv.sum_comp (contrEquiv1 dot_S256x1024_S1024x1024_S256x1024_1_0_0_1_n_n 1024 rfl rfl).symm]
  refine Finset.sum_congr rfl fun d _ => ?_
  have hk := contrEquiv1_symm_val dot_S256x1024_S1024x1024_S256x1024_1_0_0_1_n_n 1024 rfl rfl d
  have el : dot_S256x1024_S1024x1024_S256x1024_1_0_0_1_n_n.lhsIdx (ix2 p e) ((contrEquiv1 dot_S256x1024_S1024x1024_S256x1024_1_0_0_1_n_n 1024 rfl rfl).symm d) = ix2 p d := funext fun a => Fin.ext (by
    match a with
    | ⟨0, _⟩ => exact project_lhs_row _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p e) ((contrEquiv1 dot_S256x1024_S1024x1024_S256x1024_1_0_0_1_n_n 1024 rfl rfl).symm d) = ix2 d e := funext fun a => Fin.ext (by
    match a with
    | ⟨0, _⟩ => exact (dot_S256x1024_S1024x1024_S256x1024_1_0_0_1_n_n.rhsIdx_val_of_single rfl _ _).trans hk
    | ⟨1, _⟩ => exact project_rhs_lane _ _)
  rw [el, er]

theorem keys_lhs_row (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem keys_rhs_key (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl

/-- Projected rows against the keys: `∑ e, l (p, e) · r (k, e)` (both contract their last axis). -/
theorem against_keys_apply (l : FVec Ideal S256x1024 .bf16) (r : FVec Ideal S2048x1024 .bf16) (p : Fin 256) (k : Fin 2048) :
    matmul dot_S256x1024_S2048x1024_S256x2048_1_1_0_0_n_n none l r (constant S256x2048 .f32 0x00000000#32) (ix2 p k)
      = ∑ e : Fin 1024, l (ix2 p e) * r (ix2 k e) := by
  simp only [matmul]
  rw [Ideal.matmul_constant_zero_apply, ← Equiv.sum_comp (contrEquiv1 dot_S256x1024_S2048x1024_S256x2048_1_1_0_0_n_n 1024 rfl rfl).symm]
  refine Finset.sum_congr rfl fun e _ => ?_
  have hk := contrEquiv1_symm_val dot_S256x1024_S2048x1024_S256x2048_1_1_0_0_n_n 1024 rfl rfl e
  have el : dot_S256x1024_S2048x1024_S256x2048_1_1_0_0_n_n.lhsIdx (ix2 p k) ((contrEquiv1 dot_S256x1024_S2048x1024_S256x2048_1_1_0_0_n_n 1024 rfl rfl).symm e) = ix2 p e := funext fun a => Fin.ext (by
    match a with
    | ⟨0, _⟩ => exact keys_lhs_row _ _
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 p k) ((contrEquiv1 dot_S256x1024_S2048x1024_S256x2048_1_1_0_0_n_n 1024 rfl rfl).symm e) = ix2 k e := funext fun a => Fin.ext (by
    match a with
    | ⟨0, _⟩ => exact keys_rhs_key _ _
    | ⟨1, _⟩ => exact (dot_S256x1024_S2048x1024_S256x2048_1_1_0_0_n_n.rhsIdx_val_of_single rfl _ _).trans hk)
  rw [el, er]

theorem weighted_lhs_row (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem weighted_rhs_lane (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Weights against the values: `∑ k, l (p, k) · r (k, c)`. -/
theorem weighted_apply (l : FVec Ideal S256x2048 .bf16) (r : FVec Ideal S2048x1024 .bf16) (p : Fin 256) (c : Fin 1024) :
    matmul dot_S256x2048_S2048x1024_S256x1024_1_0_0_1_n_n none l r (constant S256x1024 .f32 0x00000000#32) (ix2 p c)
      = ∑ k : Fin 2048, l (ix2 p k) * r (ix2 k c) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p c) ((contrEquiv1 dot_S256x2048_S2048x1024_S256x1024_1_0_0_1_n_n 2048 rfl rfl).symm k) = ix2 p k := funext fun a => Fin.ext (by
    match a with
    | ⟨0, _⟩ => exact weighted_lhs_row _ _
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 p c) ((contrEquiv1 dot_S256x2048_S2048x1024_S256x1024_1_0_0_1_n_n 2048 rfl rfl).symm k) = ix2 k c := funext fun a => Fin.ext (by
    match a with
    | ⟨0, _⟩ => exact (dot_S256x2048_S2048x1024_S256x1024_1_0_0_1_n_n.rhsIdx_val_of_single rfl _ _).trans hk
    | ⟨1, _⟩ => exact weighted_rhs_lane _ _)
  rw [el, er]

end Cert.KernelIdeal.Tile

end
-- ==== Proof.TileAttention.lean ====
/-
  Row `p` of the attention tile is `Attention.attended` of query row `p`.

  The tile's masked scores: the 256 query rows through the projection, against the batch's 2048 keys, divided by ten, each key
  lowered by its penalty. The tile's weights: each row shifted by its maximum, exponentiated, divided by the row's sum. The
  output is the weights against the values. Read at an index each step is the matching line of `Attention`: the matrix
  products are the sums over their contracted axis, the row maximum the fold of `max` from `−∞`, the row sum the plain sum,
  and a change of float format is the identity.
-/
import proofs.«165789_j10299331576088_2_alg».proof.Proof.TileProducts

noncomputable section

namespace Cert.KernelIdeal.Tile

open Cert.KernelIdeal Cert.KernelIdeal.Gen Idealize.ShloMosaic Idealize.ShloMosaic.ValueIdx Cert.Attention

/-- The masked, scaled scores of the tile's query rows against the keys. -/
def maskedScores (x0 : FVec Ideal S1x256x1024 .f32) (x1 : FVec Ideal S1024x1024 .bf16) (xs0 : FVec Ideal S2048x1024 .bf16)
    (x4 : FVec Ideal S1x1x2048 .f32) : FVec Ideal S256x2048 .f32 :=
  subf
    (divf
      (matmul dot_S256x1024_S2048x1024_S256x2048_1_1_0_0_n_n none
        (truncf .bf16
          (matmul dot_S256x1024_S1024x1024_S256x1024_1_0_0_1_n_n none
            (truncf .bf16 (shapeCast S256x1024 x0 shapeCasts_S1x256x1024_S256x1024) bitsLt_bf16_f32)
            (shapeCast S1024x1024 x1 shapeCasts_S1024x1024_S1024x1024)
            (constant S256x1024 .f32 0x00000000#32))
          bitsLt_bf16_f32)
        xs0 (constant S256x2048 .f32 0x00000000#32))
      (broadcast S256x2048 (Scalar.ofBits (F := Ideal) .f32 0x41200000#32)))
    (broadcastTo S256x2048
      (mulf
        (subf (broadcast S1x2048 (Scalar.ofBits (F := Ideal) .f32 0x3F800000#32)) (shapeCast S1x2048 x4 shapeCasts_S1x1x2048_S1x2048))
        (broadcast S1x2048 (Scalar.ofBits (F := Ideal) .f32 0x501502F9#32)))
      broadcasts_S1x2048_S256x2048)

/-- A tile of scores with each row shifted by its maximum and exponentiated. -/
def shiftedExp (s : FVec Ideal S256x2048 .f32) : FVec Ideal S256x2048 .f32 :=
  exp (subf s (broadcastTo S256x2048
    (shapeCast S256x1 (multiReduction .maximumf [1] S256 s 0xFF800000#32 reduces_S256x2048_S256 (.inl rfl) rfl) shapeCasts_S256_S256x1)
    broadcasts_S256x1_S256x2048))

/-- The tile's weights: the shifted exponentials, each row divided by its sum. -/
def normalized (s : FVec Ideal S256x2048 .f32) : FVec Ideal S256x2048 .bf16 :=
  truncf .bf16
    (divf (shiftedExp s)
      (broadcastTo S256x2048
        (shapeCast S256x1 (multiReduction .add [1] S256 (shiftedExp s) 0x00000000#32 reduces_S256x2048_S256 (.inl rfl) rfl) shapeCasts_S256_S256x1)
        broadcasts_S256x1_S256x2048))
    bitsLt_bf16_f32

/-- The tile's output is the weights of its masked scores against the values. -/
theorem tile_eq (x0 : FVec Ideal S1x256x1024 .f32) (x1 : FVec Ideal S1024x1024 .bf16) (xs0 : FVec Ideal S2048x1024 .bf16)
    (x4 : FVec Ideal S1x1x2048 .f32) :
    k0_pay8 (F := Ideal) x0 x1 xs0 x4
      = matmul dot_S256x2048_S2048x1024_S256x1024_1_0_0_1_n_n none (normalized (maskedScores x0 x1 xs0 x4)) xs0 (constant S256x1024 .f32 0x00000000#32) := rfl

/-- The masked score of query row `p` against key `k`. -/
theorem maskedScores_apply (x0 : FVec Ideal S1x256x1024 .f32) (x1 : FVec Ideal S1024x1024 .bf16) (xs0 : FVec Ideal S2048x1024 .bf16)
    (x4 : FVec Ideal S1x1x2048 .f32) (p : Fin 256) (k : Fin 2048) :
    (maskedScores x0 x1 xs0 x4 (ix2 p k) : EReal)
      = score (fun d => x0 (ix3 (0 : Fin 1) p d)) (fun d e => x1 (ix2 d e)) (fun k e => xs0 (ix2 k e))
          (fun k => x4 (ix3 (0 : Fin 1) (0 : Fin 1) k)) k := by
  unfold maskedScores
  rw [subf_apply, divf_apply, against_keys_apply, broadcast_apply, broadcastTo_1b_ab_apply, mulf_apply, subf_apply,
    broadcast_apply, broadcast_apply, shapeCast_1ab_ab_apply]
  unfold score penalty projected
  refine congrArg₂ (· - ·) (congrArg (Ideal.div · _) (Finset.sum_congr rfl fun e _ => ?_)) rfl
  rw [truncf_apply, project_apply]
  refine congrArg (· * _) (Finset.sum_congr rfl fun d _ => ?_)
  rw [truncf_apply, shapeCast_1ab_ab_apply, shapeCast_self]

/-- A shifted exponential at row `p`, key `k`. -/
theorem shiftedExp_apply (s : FVec Ideal S256x2048 .f32) (p : Fin 256) (k : Fin 2048) :
    (shiftedExp s (ix2 p k) : EReal) = Ideal.exp (s (ix2 p k) - rowPeak s p) := by
  unfold shiftedExp
  rw [exp_apply, subf_apply, Cert.LibLayout.broadcastTo_a1_ab_apply, Cert.LibLayout.shapeCast_a_a1_apply]
  exact congrArg (fun m => Ideal.exp (s (ix2 p k) - m)) (rowmax_apply s _ _ p)

/-- A weight at row `p`, key `k`. -/
theorem normalized_apply (s : FVec Ideal S256x2048 .f32) (p : Fin 256) (k : Fin 2048) :
    (normalized s (ix2 p k) : EReal)
      = Ideal.div (Ideal.exp (s (ix2 p k) - rowPeak s p)) (∑ k' : Fin 2048, Ideal.exp (s (ix2 p k') - rowPeak s p)) := by
  unfold normalized
  rw [truncf_apply, divf_apply, shiftedExp_apply, Cert.LibLayout.broadcastTo_a1_ab_apply, Cert.LibLayout.shapeCast_a_a1_apply]
  refine congrArg (Ideal.div _) ((rowsum_apply (shiftedExp s) _ _ p).trans (Finset.sum_congr rfl fun k' _ => ?_))
  exact shiftedExp_apply s p k'

/-- ROW `p` OF THE TILE, at value lane `c`, is the attention output of query row `p`. -/
theorem attention_tile (x0 : FVec Ideal S1x256x1024 .f32) (x1 : FVec Ideal S1024x1024 .bf16) (xs0 : FVec Ideal S2048x1024 .bf16)
    (x4 : FVec Ideal S1x1x2048 .f32) (p : Fin 256) (c : Fin 1024) :
    (k0_pay8 (F := Ideal) x0 x1 xs0 x4 (ix2 p c) : EReal)
      = attended (fun d => x0 (ix3 (0 : Fin 1) p d)) (fun d e => x1 (ix2 d e)) (fun k e => xs0 (ix2 k e))
          (fun k => x4 (ix3 (0 : Fin 1) (0 : Fin 1) k)) c := by
  rw [tile_eq, weighted_apply]
  unfold attended mass unnorm peak
  have hs : ∀ k : Fin 2048, (maskedScores x0 x1 xs0 x4 (ix2 p k) : EReal)
      = score (fun d => x0 (ix3 (0 : Fin 1) p d)) (fun d e => x1 (ix2 d e)) (fun k e => xs0 (ix2 k e))
          (fun k => x4 (ix3 (0 : Fin 1) (0 : Fin 1) k)) k := fun k => maskedScores_apply x0 x1 xs0 x4 p k
  have hp : rowPeak (maskedScores x0 x1 xs0 x4) p
      = (Finset.univ : Finset (Fin 2048)).fold max (Ideal.ofBits .f32 0xFF800000#32)
          (score (fun d => x0 (ix3 (0 : Fin 1) p d)) (fun d e => x1 (ix2 d e)) (fun k e => xs0 (ix2 k e))
            (fun k => x4 (ix3 (0 : Fin 1) (0 : Fin 1) k))) := by
    unfold rowPeak
    exact Finset.fold_congr fun k _ => hs k
  refine Finset.sum_congr rfl fun k _ => ?_
  rw [normalized_apply, hp, hs k]
  refine congrArg (fun z => Ideal.div _ z * _) (Finset.sum_congr rfl fun k' _ => ?_)
  rw [hs k']

/-- The same with each block given by what it holds: the query row `q`, the projection `W`, the values `V`, the key mask `μ`. -/
theorem attention_tile_of (x0 : FVec Ideal S1x256x1024 .f32) (x1 : FVec Ideal S1024x1024 .bf16) (xs0 : FVec Ideal S2048x1024 .bf16)
    (x4 : FVec Ideal S1x1x2048 .f32) (p : Fin 256) (c : Fin 1024)
    (q : Fin 1024 → EReal) (W : Fin 1024 → Fin 1024 → EReal) (V : Fin 2048 → Fin 1024 → EReal) (μ : Fin 2048 → EReal)
    (hq : ∀ d, (x0 (ix3 (0 : Fin 1) p d) : EReal) = q d) (hW : ∀ d e, (x1 (ix2 d e) : EReal) = W d e)
    (hV : ∀ k e, (xs0 (ix2 k e) : EReal) = V k e) (hμ : ∀ k, (x4 (ix3 (0 : Fin 1) (0 : Fin 1) k) : EReal) = μ k) :
    (k0_pay8 (F := Ideal) x0 x1 xs0 x4 (ix2 p c) : EReal) = attended q W V μ c := by
  rw [attention_tile]
  exact congr (congr (congr (congr (congrArg attended (funext hq)) (funext fun d => funext (hW d)))
    (funext fun k => funext (hV k))) (funext hμ)) rfl

end Cert.KernelIdeal.Tile

end
-- ==== Proof.PointBlocks.lean ====
/-
  What each grid point writes back, and the array its blocks make up.

  The grid is 16 batches by 8 query tiles, walked batch by batch: point `t` is tile `t % 8` of batch `t / 8`. Its query block is
  rows `256 · (t % 8) …` of that batch; its values and mask blocks are the whole batch's; the projection block is the whole
  projection (the region finds it with its float format changed, which is the identity here, and the mask also as a row, the
  column transposed). The two carried scratches are written at a batch's first tile only, so after ANY point they hold that
  point's batch's values and masked maxima (induction over the points: a later tile of a batch keeps what the tile before left,
  and is in the same batch). Hence every point writes back the block of `Attention.result` at its batch and rows, and the 128
  blocks tile the result array.
-/
import proofs.«165789_j10299331576088_2_alg».proof.Proof.Gen.KernelIdeal.Value
import proofs.«165789_j10299331576088_2_alg».proof.Proof.BlockLanes
import proofs.«165789_j10299331576088_2_alg».proof.Proof.TileStores
import proofs.«165789_j10299331576088_2_alg».proof.Proof.TileAttention
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Attention Cert.KernelIdeal.Cases Cert.KernelIdeal.Tile

variable (m : (ℓ : Loc nD τ sig) → Buf (Elt Ideal) ℓ) (ρ : Dev nD → PrngReg)

/-! ## The arguments, and the grid -/

abbrev argQ (c : Dev nD) : SRows.Idx → EReal := m ((c : Thread nD τ).loc main_arg0)
abbrev argV (c : Dev nD) : SRows.Idx → EReal := m ((c : Thread nD τ).loc main_arg1)
abbrev argM (c : Dev nD) : SMask.Idx → EReal := m ((c : Thread nD τ).loc main_arg2)
abbrev argW (c : Dev nD) : SProj.Idx → EReal := m ((c : Thread nD τ).loc main_arg3)

theorem lt_points (t : Fin cfg0.N) : t.val < 128 := lt_of_lt_of_eq t.isLt (show cfg0.N = 128 from N_0)

/-- The batch of point `t`. -/
def batchOf (t : Fin cfg0.N) : Fin 16 := ⟨t.val / 8, by have := lt_points t; omega⟩
/-- Row `p` of point `t`'s query tile, as a row of the batch. -/
def rowAt (t : Fin cfg0.N) (p : Fin 256) : Fin 2048 := ⟨256 * (t.val % 8) + p.val, by have := p.isLt; omega⟩

/-- The printed index maps over the grid: the query and output windows move with the batch and the tile, the values and
    mask windows with the batch, the projection window not at all. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 2) = 0 ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = t.val % 8 ∧ win0_5.index t (2 : Fin 3) = 0) :=
  (by decide +kernel : ∀ t : Fin grid0.N, _)

/-! ## The two arrays the host prepares before the region -/

theorem mask_row_array (c : Dev nD) :
    (V m c main_v0 : S16x1x2048.Idx → EReal)
      = transpose S16x1x2048 [0, 2, 1] (m ((c : Thread nD τ).loc main_arg2)) transposes_S16x2048x1_S16x1x2048_0_2_1 := by
  dsimp only [Gen.V, Gen.hostOps0]; after_results

theorem projection_array (c : Dev nD) (i : S1024x1024.Idx) : (V m c main_v1 i : EReal) = argW m c i := by
  dsimp only [Gen.V, Gen.hostOps0]; after_results; rfl

/-! ## Each input block, read where it sits in its array -/

theorem query_block (c : Dev nD) (t : Fin cfg0.N) (p : Fin 256) (d : Fin 1024) :
    (iblk m c 0 t : Vec Ideal S1x256x1024 .f32) (ix3 (0 : Fin 1) p d) = argQ m c (ix3 (batchOf t) (rowAt t p) d) := by
  obtain ⟨⟨e0, e1, e2⟩, -⟩ := idx_facts t
  show V m c main_arg0 (((cfg0.win 0).blk t).view.emb (ix3 (0 : Fin 1) p d)) = _
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 256 + 1 * p.val = 256 * (t.val % 8) + p.val; omega
  | ⟨2, _⟩ => show win0_0.index t (2 : Fin 3) * 1024 + 1 * d.val = d.val; omega

theorem projection_block (c : Dev nD) (t : Fin cfg0.N) (d e : Fin 1024) :
    (iblk m c 1 t : Vec Ideal S1024x1024 .bf16) (ix2 d e) = argW m c (ix2 d e) := by
  obtain ⟨-, ⟨e0, e1⟩, -⟩ := idx_facts t
  show (V m c main_v1 (((cfg0.win 1).blk t).view.emb (ix2 d e)) : EReal) = _
  rw [projection_array]
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

theorem values_block (c : Dev nD) (t : Fin cfg0.N) (k : Fin 2048) (e : Fin 1024) :
    (iblk m c 2 t : Vec Ideal S1x2048x1024 .f32) (ix3 (0 : Fin 1) k e) = argV m c (ix3 (batchOf t) k e) := by
  obtain ⟨-, -, ⟨e0, e1, e2⟩, -⟩ := idx_facts t
  show V m c main_arg1 (((cfg0.win 2).blk t).view.emb (ix3 (0 : Fin 1) k e)) = _
  rw [V_main_arg1]
  refine congrArg _ (funext fun a => Fin.ext ?_)
  match a with
  | ⟨0, _⟩ => show win0_2.index t (0 : Fin 3) * 1 + 1 * 0 = t.val / 8; omega
  | ⟨1, _⟩ => show win0_2.index t (1 : Fin 3) * 2048 + 1 * k.val = k.val; omega
  | ⟨2, _⟩ => show win0_2.index t (2 : Fin 3) * 1024 + 1 * e.val = e.val; omega

theorem mask_block (c : Dev nD) (t : Fin cfg0.N) (k : Fin 2048) :
    (iblk m c 3 t : Vec Ideal S1x2048x1 .f32) (ix3 (0 : Fin 1) k (0 : Fin 1)) = argM m c (ix3 (batchOf t) k (0 : Fin 1)) := by
  obtain ⟨-, -, -, ⟨e0, e1, e2⟩, -⟩ := idx_facts t
  show V m c main_arg2 (((cfg0.win 3).blk t).view.emb (ix3 (0 : Fin 1) k (0 : Fin 1))) = _
  rw [V_main_arg2]
  refine congrArg _ (funext fun a => Fin.ext ?_)
  match a with
  | ⟨0, _⟩ => show win0_3.index t (0 : Fin 3) * 1 + 1 * 0 = t.val / 8; omega
  | ⟨1, _⟩ => show win0_3.index t (1 : Fin 3) * 2048 + 1 * k.val = k.val; omega
  | ⟨2, _⟩ => show win0_3.index t (2 : Fin 3) * 1 + 1 * 0 = 0; omega

theorem mask_row_block (c : Dev nD) (t : Fin cfg0.N) (k : Fin 2048) :
    (iblk m c 4 t : Vec Ideal S1x1x2048 .f32) (ix3 (0 : Fin 1) (0 : Fin 1) k) = argM m c (ix3 (batchOf t) k (0 : Fin 1)) := by
  obtain ⟨-, -, -, -, ⟨e0, e1, e2⟩, -⟩ := idx_facts t
  show (V m c main_v0 : S16x1x2048.Idx → EReal) (((cfg0.win 4).blk t).view.emb (ix3 (0 : Fin 1) (0 : Fin 1) k)) = _
  rw [mask_row_array]
  have hi : ((cfg0.win 4).blk t).view.emb (ix3 (0 : Fin 1) (0 : Fin 1) k) = (ix3 (batchOf t) (0 : Fin 1) k : S16x1x2048.Idx) :=
    funext fun a => Fin.ext (by
      match a with
      | ⟨0, _⟩ => show win0_4.index t (0 : Fin 3) * 1 + 1 * 0 = t.val / 8; omega
      | ⟨1, _⟩ => show win0_4.index t (1 : Fin 3) * 1 + 1 * 0 = 0; omega
      | ⟨2, _⟩ => show win0_4.index t (2 : Fin 3) * 2048 + 1 * k.val = k.val; omega)
  rw [hi]
  exact transpose_ix3_021_apply _ _ (batchOf t) (0 : Fin 1) k

end Cert.KernelIdeal.Blocks

end
-- ==== Proof.PointValues.lean ====
/-
  The kernel's result array is `Attention.result` of its arguments.

  After any grid point the two carried scratches hold that point's batch's values and masked maxima: a batch's first tile stores
  them, and every later tile of the batch keeps what the tile before it left (induction over the points). So at every point the
  body sees its batch's values and pooled maxima, and writes back the block of `Attention.result` at its batch and rows, lane
  range by lane range. Point `8 b + r / 256` covers row `r` of batch `b`, so the blocks make up the whole array.
-/
import proofs.«165789_j10299331576088_2_alg».proof.Proof.PointBlocks

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Attention Cert.KernelIdeal.Cases Cert.KernelIdeal.Tile

variable (m : (ℓ : Loc nD τ sig) → Buf (Elt Ideal) ℓ) (ρ : Dev nD → PrngReg)

/-! ## What the carried scratches hold -/

/-- Batch `b`'s values, as the values scratch holds them. -/
def valuesOfBatch (v : SRows.Idx → EReal) (b : Fin 16) : Vec Ideal S2048x1024 .bf16 :=
  fun y => v (ix3 b (y 0 : Fin 2048) (y 1 : Fin 1024))

/-- Batch `b`'s masked maxima, as the pooled scratch holds them. -/
def pooledOfBatch (v : SRows.Idx → EReal) (μ : SMask.Idx → EReal) (b : Fin 16) : Vec Ideal S1x1024 .f32 :=
  fun y => pooled (valuesOf v b) (maskOf μ b) (y 1 : Fin 1024)

theorem first_values (c : Dev nD) (t : Fin cfg0.N) :
    (k0_pay5 (F := Ideal) (iblk m c 2 t) : Vec Ideal S2048x1024 .bf16) = valuesOfBatch (argV m c) (batchOf t) := by
  funext y
  obtain ⟨k, e, rfl⟩ : ∃ (k : Fin 2048) (e : Fin 1024), y = ix2 k e := ⟨y 0, y 1, eq_ix2 y⟩
  exact (stored_values (iblk m c 2 t) k e).trans (values_block m c t k e)

theorem first_pooled (c : Dev nD) (t : Fin cfg0.N) :
    (k0_pay6 (F := Ideal) (iblk m c 2 t) (iblk m c 3 t) : Vec Ideal S1x1024 .f32)
      = pooledOfBatch (argV m c) (argM m c) (batchOf t) := by
  funext y
  obtain ⟨u, e, rfl⟩ : ∃ (u : Fin 1) (e : Fin 1024), y = ix2 u e := ⟨y 0, y 1, eq_ix2 y⟩
  refine (stored_pool (iblk m c 2 t) (iblk m c 3 t) u e).trans ?_
  exact congr (congr (congrArg pooled (funext fun k => funext fun e' => values_block m c t k e'))
    (funext fun k => mask_block m c t k)) rfl

/-- At a batch's first tile the scratches are left holding that batch's values and masked maxima. -/
theorem carried_first (c : Dev nD) (t : Fin cfg0.N) (h0 : t.val % 8 = 0) :
    (outsAt0 m c t.val t.isLt).2.1 = valuesOfBatch (argV m c) (batchOf t)
      ∧ (outsAt0 m c t.val t.isLt).2.2 = pooledOfBatch (argV m c) (argM m c) (batchOf t) := by
  rw [outsAt0_A m c t h0]
  dsimp only
  rw [values_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) ((hcond0_0 t).mpr h0) (iblk m c 0 t) (iblk m c 1 t) (iblk m c 2 t) (iblk m c 3 t) (iblk m c 4 t),
    pooled_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) ((hcond0_0 t).mpr h0) (iblk m c 0 t) (iblk m c 1 t) (iblk m c 2 t) (iblk m c 3 t) (iblk m c 4 t),
    first_values m c t, first_pooled m c t]
  exact ⟨rfl, rfl⟩

/-- At any other tile they hold what the point before left. -/
theorem carried_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 := by
  rw [outsAt0_B m c t h0]
  dsimp only
  exact ⟨rfl, rfl⟩

/-- AFTER ANY POINT the scratches hold that point's batch's values and masked maxima. -/
theorem carried (c : Dev nD) : ∀ (n : ℕ) (h : n < cfg0.N),
    (outsAt0 m c n h).2.1 = valuesOfBatch (argV m c) (batchOf ⟨n, h⟩)
      ∧ (outsAt0 m c n h).2.2 = pooledOfBatch (argV m c) (argM m c) (batchOf ⟨n, h⟩) := by
  intro n
  induction n with
  | zero => intro h; exact carried_first m c ⟨0, h⟩ (Nat.zero_mod 8)
  | succ n ih =>
    intro h
    by_cases h0 : (n + 1) % 8 = 0
    · exact carried_first m c ⟨n + 1, h⟩ h0
    · have hl := carried_later m c ⟨n + 1, h⟩ h0
      have ihn := ih (Nat.lt_of_succ_lt h)
      have hb : batchOf ⟨n + 1, h⟩ = batchOf ⟨n, Nat.lt_of_succ_lt h⟩ := Fin.ext (by
        show (n + 1) / 8 = n / 8; omega)
      rw [hb]
      exact ⟨hl.1.trans ihn.1, hl.2.trans ihn.2⟩

/-! ## What a point writes back -/

/-- Where element `(u, p, c)` of point `t`'s output block sits in the result array. -/
theorem out_emb (t : Fin cfg0.N) (u : Fin 1) (p : Fin 256) (c3 : Fin 3072) :
    ((cfg0.win 5).blk t).view.emb (ix3 u p c3) = (ix3 (batchOf t) (rowAt t p) c3 : S16x2048x3072.Idx) := by
  obtain ⟨-, -, -, -, -, ⟨e0, e1, e2⟩⟩ := idx_facts t
  have hu := u.isLt
  refine funext fun a => Fin.ext ?_
  match a with
  | ⟨0, _⟩ => show win0_5.index t (0 : Fin 3) * 1 + 1 * u.val = t.val / 8; omega
  | ⟨1, _⟩ => show win0_5.index t (1 : Fin 3) * 256 + 1 * p.val = 256 * (t.val % 8) + p.val; omega
  | ⟨2, _⟩ => show win0_5.index t (2 : Fin 3) * 3072 + 1 * c3.val = c3.val; omega

/-- At either kind of point the body builds its block from its batch's values and masked maxima. -/
theorem flushed_block (c : Dev nD) (t : Fin cfg0.N) :
    (dats m 0 c).flushed 5 t = (cfg0.win 5).cut (grid0.coords t)
      (blockOf (k0_pay8 (F := Ideal) (iblk m c 0 t) (iblk m c 1 t) (valuesOfBatch (argV m c) (batchOf t)) (iblk m c 4 t))
        (k0_pay7 (iblk m c 0 t)) (pooledOfBatch (argV m c) (argM m c) (batchOf t))) := by
  by_cases h0 : t.val % 8 = 0
  · rw [Value.flushed5_A m c t h0, block_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t), first_values m c t, first_pooled m c t]
  · have hpos : t.val ≠ 0 := fun hz => h0 (by rw [hz])
    have hlt : t.val - 1 < cfg0.N := Nat.lt_of_le_of_lt (Nat.sub_le _ _) t.isLt
    have hc := carried m c (t.val - 1) hlt
    have hb : batchOf ⟨t.val - 1, hlt⟩ = batchOf t := Fin.ext (by show (t.val - 1) / 8 = t.val / 8; omega)
    rw [Value.flushed5_B m c t h0, block_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) _ _, hc.1, hc.2, hb]

/-- Element `(u, p, c)` of what point `t` writes back is `Attention.resultAt` at `t`'s batch, row `p` of its tile, lane `c`. -/
theorem flushed_at (c : Dev nD) (t : Fin cfg0.N) (u : Fin 1) (p : Fin 256) (c3 : Fin 3072) :
    ((dats m 0 c).flushed 5 t : Vec Ideal S1x256x3072 .f32) (ix3 u p c3)
      = resultAt (argQ m c) (argV m c) (argM m c) (argW m c) (batchOf t) (rowAt t p) c3 := by
  rw [flushed_block m c t]
  show blockOf (k0_pay8 (F := Ideal) (iblk m c 0 t) (iblk m c 1 t) (valuesOfBatch (argV m c) (batchOf t)) (iblk m c 4 t))
    (k0_pay7 (iblk m c 0 t)) (pooledOfBatch (argV m c) (argM m c) (batchOf t)) (ix3 u p c3) = _
  by_cases h1 : c3.val < 1024
  · rw [blockOf_low _ _ _ u p c3 h1, resultAt_low _ _ _ _ _ _ c3 h1]
    exact attention_tile_of (iblk m c 0 t) (iblk m c 1 t) (valuesOfBatch (argV m c) (batchOf t)) (iblk m c 4 t) p ⟨c3.val, h1⟩
      (rowOf (argQ m c) (batchOf t) (rowAt t p)) (matrixOf (argW m c)) (valuesOf (argV m c) (batchOf t)) (maskOf (argM m c) (batchOf t))
      (fun d => query_block m c t p d) (fun d e => projection_block m c t d e) (fun k e => rfl) (fun k => mask_row_block m c t k)
  · by_cases h2 : c3.val < 2048
    · rw [blockOf_mid _ _ _ u p c3 h1 h2, resultAt_mid _ _ _ _ _ _ c3 h1 h2]
      unfold k0_pay7
      exact (shapeCast_1ab_ab_apply (iblk m c 0 t) _ p _).trans (query_block m c t p _)
    · rw [blockOf_high _ _ _ u p c3 h2, resultAt_high _ _ _ _ _ _ c3 h2]
      rfl

/-- WHAT POINT `t` WRITES BACK is its block of `Attention.result` of the arguments. -/
theorem flushed_eq (c : Dev nD) (t : Fin cfg0.N) :
    (dats m 0 c).flushed 5 t
      = ((cfg0.win 5).blk t).view.read (Elt Ideal) (result (argQ m c) (argV m c) (argM m c) (argW m c)) := by
  funext y
  obtain ⟨u, p, c3, rfl⟩ : ∃ (u : Fin 1) (p : Fin 256) (c3 : Fin 3072), y = ix3 u p c3 := ⟨y 0, y 1, y 2, eq_ix3 y⟩
  rw [View.read_apply, out_emb, result_apply]
  exact flushed_at m c t u p c3

/-! ## The blocks make up the array -/

theorem mem_blk (t : Fin cfg0.N) (i : S16x2048x3072.Idx) :
    i ∈ ((cfg0.win 5).blk t).view.set ↔ ∀ a : Fin 3, win0_5.index t a * S1x256x3072.size a ≤ (i a).val
      ∧ (i a).val < win0_5.index t a * S1x256x3072.size a + S1x256x3072.size a := by
  show i ∈ ((View.whole main_v2).slice (win0_5.rect t)).set ↔ _
  rw [View.set_slice_whole, Rect.mem_set_unit]
  exact Iff.rfl

/-- Row `r` of batch `b` lies in the block of point `8 b + r / 256`. -/
theorem covered (i : S16x2048x3072.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 3072 := (i 2).isLt
  have hN : cfg0.N = 128 := N_0
  refine ⟨⟨8 * (i 0).val + (i 1).val / 256, by rw [hN]; omega⟩, flush0_5 _, ?_⟩
  obtain ⟨-, -, -, -, -, ⟨e0, e1, e2⟩⟩ := idx_facts ⟨8 * (i 0).val + (i 1).val / 256, by rw [hN]; omega⟩
  rw [mem_blk]
  intro a
  match a with
  | ⟨0, _⟩ =>
    show win0_5.index _ (0 : Fin 3) * 1 ≤ (i 0).val ∧ (i 0).val < win0_5.index _ (0 : Fin 3) * 1 + 1
    rw [e0]; show (8 * (i 0).val + (i 1).val / 256) / 8 * 1 ≤ (i 0).val ∧ (i 0).val < (8 * (i 0).val + (i 1).val / 256) / 8 * 1 + 1; omega
  | ⟨1, _⟩ =>
    show win0_5.index _ (1 : Fin 3) * 256 ≤ (i 1).val ∧ (i 1).val < win0_5.index _ (1 : Fin 3) * 256 + 256
    rw [e1]; show (8 * (i 0).val + (i 1).val / 256) % 8 * 256 ≤ (i 1).val ∧ (i 1).val < (8 * (i 0).val + (i 1).val / 256) % 8 * 256 + 256; omega
  | ⟨2, _⟩ =>
    show win0_5.index _ (2 : Fin 3) * 3072 ≤ (i 2).val ∧ (i 2).val < win0_5.index _ (2 : Fin 3) * 3072 + 3072
    rw [e2]; omega

/-- THE RESULT ARRAY after the run is `Attention.result` of the arguments. -/
theorem final (c : Dev nD) :
    (dats m 0 c).arrAt 5 cfg0.N = result (argQ m c) (argV m c) (argM m c) (argW m c) :=
  (dats m 0 c).arrAt_eq_of_cover 5 (result (argQ m c) (argV m c) (argM m c) (argW m c)) (fun t _ => flushed_eq m c t) covered

/-- The kernel's run with its result array named, the arguments unchanged. -/
theorem run : θ_run defs (onTc (τ := τ) (main (F := Ideal))) ⟨m, fun _ => 0, ρ⟩ fun r => ∀ c : Dev nD,
      r.2.mem ((c : Thread nD τ).loc main_v2) = result (argQ m c) (argV m c) (argM m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefStages.lean ====
/-
  The reference's result is `Attention.result` of its four arguments, index by index.

  Each stage of the reference read at an index is one line of `Attention`: the key penalty, the masked maximum over the keys
  (a fold of `max` from `−∞` along the key axis), the two matrix products and the division by ten, the row maximum (taken once
  more against `−∞`, which changes nothing: the fold already starts there), the shifted exponentials, their sum (from zero), the
  quotient, the product with the values; the pooled maximum is added to a zero array, which changes nothing. The result joins
  three arrays along the lanes, and an index reads the piece its lane falls in.
-/
import proofs.«165789_j10299331576088_2_alg».proof.Proof.ReferenceRead
import proofs.«165789_j10299331576088_2_alg».proof.Proof.Attention
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.Attention

abbrev Rows := (⟨S16x2048x1024, .f32⟩ : BufTy).Contents (Elt Ideal)
abbrev Mask := (⟨S16x2048x1, .f32⟩ : BufTy).Contents (Elt Ideal)
abbrev Proj := (⟨S1024x1024, .f32⟩ : BufTy).Contents (Elt Ideal)

/-! ## Where each layout stage reads its operand -/

theorem idx4 (b : Fin 16) (k : Fin 2048) (e : Fin 1024) : idx_main_v4 (ix3 b k e) = ix3 b k (0 : Fin 1) :=
  funext fun a => by match a with | ⟨0, _⟩ => rfl | ⟨1, _⟩ => rfl | ⟨2, _⟩ => rfl
theorem idx7 (b : Fin 16) (u : Fin 1) (e : Fin 1024) : idx_main_v7 (ix3 b u e) = ix2 b e :=
  funext fun a => by match a with | ⟨0, _⟩ => rfl | ⟨1, _⟩ => rfl
theorem idx10 (b : Fin 16) (r : Fin 2048) (e : Fin 1024) : idx_main_v10 (ix3 b r e) = ix3 b (0 : Fin 1) e :=
  funext fun a => by match a with | ⟨0, _⟩ => rfl | ⟨1, _⟩ => rfl | ⟨2, _⟩ => rfl
theorem idx11 (b : Fin 16) (r : Fin 2048) (e : Fin 1024) : idx_main_v11 (ix3 b r e) = ix3 b r (0 : Fin 1) :=
  funext fun a => by match a with | ⟨0, _⟩ => rfl | ⟨1, _⟩ => rfl | ⟨2, _⟩ => rfl
theorem lidx13 (b : Fin 16) (r : Fin 2048) (e d : Fin 1024) : lidx_main_v13 (ix3 b r e) d = ix3 b r d :=
  funext fun a => by match a with | ⟨0, _⟩ => rfl | ⟨1, _⟩ => rfl | ⟨2, _⟩ => rfl
theorem ridx13 (b : Fin 16) (r : Fin 2048) (e d : Fin 1024) : ridx_main_v13 (ix3 b r e) d = ix2 d e :=
  funext fun a => by match a with | ⟨0, _⟩ => rfl | ⟨1, _⟩ => rfl
theorem lidx14 (b : Fin 16) (r k : Fin 2048) (e : Fin 1024) : lidx_main_v14 (ix3 b r k) e = ix3 b r e :=
  funext fun a => by match a with | ⟨0, _⟩ => rfl | ⟨1, _⟩ => rfl | ⟨2, _⟩ => rfl
theorem ridx14 (b : Fin 16) (r k : Fin 2048) (e : Fin 1024) : ridx_main_v14 (ix3 b r k) e = ix3 b k e :=
  funext fun a => by match a with | ⟨0, _⟩ => rfl | ⟨1, _⟩ => rfl | ⟨2, _⟩ => rfl
theorem idx17 (b : Fin 16) (u : Fin 1) (k : Fin 2048) : idx_main_v17 (ix3 b u k) = ix3 b k u :=
  funext fun a => by match a with | ⟨0, _⟩ => rfl | ⟨1, _⟩ => rfl | ⟨2, _⟩ => rfl
theorem idx22 (b : Fin 16) (r k : Fin 2048) : idx_main_v22 (ix3 b r k) = ix3 b (0 : Fin 1) k :=
  funext fun a => by match a with | ⟨0, _⟩ => rfl | ⟨1, _⟩ => rfl | ⟨2, _⟩ => rfl
theorem idx27 (b : Fin 16) (r : Fin 2048) (u : Fin 1) : idx_main_v27 (ix3 b r u) = ix2 b r :=
  funext fun a => by match a with | ⟨0, _⟩ => rfl | ⟨1, _⟩ => rfl
theorem idx28 (b : Fin 16) (r k : Fin 2048) : idx_main_v28 (ix3 b r k) = ix3 b r (0 : Fin 1) :=
  funext fun a => by match a with | ⟨0, _⟩ => rfl | ⟨1, _⟩ => rfl | ⟨2, _⟩ => rfl
theorem idx31 (b : Fin 16) (r k : Fin 2048) : idx_main_v31 (ix2 b r) k = ix3 b r k :=
  funext fun a => by match a with | ⟨0, _⟩ => rfl | ⟨1, _⟩ => rfl | ⟨2, _⟩ => rfl
theorem idx32 (b : Fin 16) (r : Fin 2048) (u : Fin 1) : idx_main_v32 (ix3 b r u) = ix2 b r :=
  funext fun a => by match a with | ⟨0, _⟩ => rfl | ⟨1, _⟩ => rfl
theorem idx33 (b : Fin 16) (r k : Fin 2048) : idx_main_v33 (ix3 b r k) = ix3 b r (0 : Fin 1) :=
  funext fun a => by match a with | ⟨0, _⟩ => rfl | ⟨1, _⟩ => rfl | ⟨2, _⟩ => rfl
theorem lidx35 (b : Fin 16) (r k : Fin 2048) (c : Fin 1024) : lidx_main_v35 (ix3 b r c) k = ix3 b r k :=
  funext fun a => by match a with | ⟨0, _⟩ => rfl | ⟨1, _⟩ => rfl | ⟨2, _⟩ => rfl
theorem ridx35 (b : Fin 16) (r k : Fin 2048) (c : Fin 1024) : ridx_main_v35 (ix3 b r c) k = ix3 b k c :=
  funext fun a => by match a with | ⟨0, _⟩ => rfl | ⟨1, _⟩ => rfl | ⟨2, _⟩ => rfl

/-! ## The pooled maximum -/

/-- The penalty of key `k` of batch `b`, as the column `[16, 2048, 1]` has it. -/
theorem penalty_column (x2 : Mask) (b : Fin 16) (k : Fin 2048) :
    (val_main_v3 (F := Ideal) x2 (ix3 b k (0 : Fin 1)) : EReal) = penalty (maskOf x2 b k) := by
  rw [val_main_v3_apply, val_main_v1_apply, val_main_v0_apply, val_main_cst_apply, val_main_v2_apply, val_main_cst_0_apply]
  rfl

theorem reduces_keys : S16x2048x1024.Reduces [1] S16x1024 := by decide

theorem lift_key (b : Fin 16) (e : Fin 1024) (k : Fin 2048) :
    reduces_keys.lift (ix2 b e) k = (ix3 b k e : S16x2048x1024.Idx) :=
  funext fun a => Fin.ext (by match a with | ⟨0, _⟩ => rfl | ⟨1, _⟩ => rfl | ⟨2, _⟩ => rfl)

/-- The masked maximum over the keys, at batch `b`, lane `e`. -/
theorem pooled_apply (x1 : Rows) (x2 : Mask) (b : Fin 16) (e : Fin 1024) :
    (val_main_v6 (F := Ideal) x1 x2 (ix2 b e) : EReal) = pooled (valuesOf x1 b) (maskOf x2 b) e := by
  unfold val_main_v6
  refine (Host.reduce_eq_fold_single FloatOps.maximumf _ _ reducesTo_S16x2048x1024_S16x1024_d1 reduces_keys h_S_ (ix2 b e)).trans ?_
  unfold pooled
  show (Finset.univ : Finset (Fin 2048)).fold max (Ideal.ofBits .f32 0xFF800000#32) _ = _
  refine Finset.fold_congr fun k _ => ?_
  show val_main_v5 (F := Ideal) x1 x2 (reduces_keys.lift (ix2 b e) k) = _
  rw [lift_key, val_main_v5_apply, val_main_v4_apply, idx4, penalty_column]
  rfl

/-- The pooled lanes of the result: the maximum, repeated down the rows, plus a zero. -/
theorem pooled_lanes (x1 : Rows) (x2 : Mask) (b : Fin 16) (r : Fin 2048) (e : Fin 1024) :
    (val_main_v12 (F := Ideal) x1 x2 (ix3 b r e) : EReal) = pooled (valuesOf x1 b) (maskOf x2 b) e := by
  rw [val_main_v12_apply, val_main_v10_apply, idx10, val_main_v7_apply, idx7, pooled_apply, val_main_v11_apply, val_main_v9_apply,
    val_main_cst_2_apply]
  show _ + Ideal.ofBits .f32 0x00000000#32 = _
  rw [Ideal.ofBits_zero_f32, add_zero]

/-! ## The attention lanes -/

/-- The penalty of key `k` of batch `b`, as the row `[16, 1, 2048]` has it. -/
theorem penalty_row (x2 : Mask) (b : Fin 16) (k : Fin 2048) :
    (val_main_v21 (F := Ideal) x2 (ix3 b (0 : Fin 1) k) : EReal) = penalty (maskOf x2 b k) := by
  rw [val_main_v21_apply, val_main_v19_apply, val_main_v18_apply, val_main_cst_4_apply, val_main_v17_apply, idx17, val_main_v20_apply,
    val_main_cst_5_apply]
  rfl

/-- The masked score of query row `r` against key `k`. -/
theorem score_apply (x0 x1 : Rows) (x2 : Mask) (x3 : Proj) (b : Fin 16) (r k : Fin 2048) :
    (val_main_v23 (F := Ideal) x0 x1 x2 x3 (ix3 b r k) : EReal)
      = score (rowOf x0 b r) (matrixOf x3) (valuesOf x1 b) (maskOf x2 b) k := by
  rw [val_main_v23_apply, val_main_v16_apply, val_main_v14_apply, val_main_v15_apply, val_main_cst_3_apply, val_main_v22_apply, idx22,
    penalty_row]
  unfold score projected
  refine congrArg₂ (· - ·) (congrArg (Ideal.div · _) (Finset.sum_congr rfl fun e _ => ?_)) rfl
  rw [lidx14, ridx14, val_main_v13_apply]
  refine congrArg (· * _) (Finset.sum_congr rfl fun d _ => ?_)
  rw [lidx13, ridx13]
  rfl

theorem reduces_lanes : S16x2048x2048.Reduces [2] S16x2048 := by decide

theorem lift_lane (b : Fin 16) (r k : Fin 2048) :
    reduces_lanes.lift (ix2 b r) k = (ix3 b r k : S16x2048x2048.Idx) :=
  funext fun a => Fin.ext (by match a with | ⟨0, _⟩ => rfl | ⟨1, _⟩ => rfl | ⟨2, _⟩ => rfl)

/-- The row maximum: the fold from `−∞`, taken once more against `−∞`. -/
theorem peak_apply (x0 x1 : Rows) (x2 : Mask) (x3 : Proj) (b : Fin 16) (r : Fin 2048) :
    (val_main_v26 (F := Ideal) x0 x1 x2 x3 (ix2 b r) : EReal)
      = peak (rowOf x0 b r) (matrixOf x3) (valuesOf x1 b) (maskOf x2 b) := by
  have h24 : (val_main_v24 (F := Ideal) x0 x1 x2 x3 (ix2 b r) : EReal)
      = peak (rowOf x0 b r) (matrixOf x3) (valuesOf x1 b) (maskOf x2 b) := by
    unfold val_main_v24
    refine (Host.reduce_eq_fold_single FloatOps.maximumf _ _ reducesTo_S16x2048x2048_S16x2048_d2 reduces_lanes h_S_ (ix2 b r)).trans ?_
    unfold peak
    show (Finset.univ : Finset (Fin 2048)).fold max (Ideal.ofBits .f32 0xFF800000#32) _ = _
    refine Finset.fold_congr fun k _ => ?_
    show val_main_v23 (F := Ideal) x0 x1 x2 x3 (reduces_lanes.lift (ix2 b r) k) = _
    rw [lift_lane, score_apply]
  rw [val_main_v26_apply, h24, val_main_v25_apply, val_main_cst_7_apply]
  show max (Ideal.ofBits .f32 0xFF800000#32) _ = _
  unfold peak
  exact max_eq_right ((Finset.le_fold_max _).2 (Or.inl le_rfl))

/-- The unnormalized weight of key `k`. -/
theorem unnorm_apply (x0 x1 : Rows) (x2 : Mask) (x3 : Proj) (b : Fin 16) (r k : Fin 2048) :
    (val_main_v30 (F := Ideal) x0 x1 x2 x3 (ix3 b r k) : EReal)
      = unnorm (rowOf x0 b r) (matrixOf x3) (valuesOf x1 b) (maskOf x2 b) k := by
  rw [val_main_v30_apply, val_main_v29_apply, score_apply, val_main_v28_apply, idx28, val_main_v27_apply, idx27, peak_apply]
  rfl

/-- The sum of the unnormalized weights, from zero. -/
theorem mass_apply (x0 x1 : Rows) (x2 : Mask) (x3 : Proj) (b : Fin 16) (r : Fin 2048) :
    (val_main_v31 (F := Ideal) x0 x1 x2 x3 (ix2 b r) : EReal)
      = mass (rowOf x0 b r) (matrixOf x3) (valuesOf x1 b) (maskOf x2 b) := by
  rw [val_main_v31_apply, val_main_cst_8_apply]
  show Ideal.ofBits .f32 0x00000000#32 + _ = _
  rw [Ideal.ofBits_zero_f32, zero_add]
  unfold mass
  refine Finset.sum_congr rfl fun k _ => ?_
  rw [idx31, unnorm_apply]

/-- The attention lanes of the result. -/
theorem attended_lanes (x0 x1 : Rows) (x2 : Mask) (x3 : Proj) (b : Fin 16) (r : Fin 2048) (c : Fin 1024) :
    (val_main_v35 (F := Ideal) x0 x1 x2 x3 (ix3 b r c) : EReal)
      = attended (rowOf x0 b r) (matrixOf x3) (valuesOf x1 b) (maskOf x2 b) c := by
  rw [val_main_v35_apply]
  unfold attended
  refine Finset.sum_congr rfl fun k _ => ?_
  rw [lidx35, ridx35, val_main_v34_apply, unnorm_apply, val_main_v33_apply, idx33, val_main_v32_apply, idx32, mass_apply]
  rfl

end Cert.ReferenceIdeal.RefValue

end
-- ==== Proof.RefResult.lean ====
/-
  The reference's result array is `Attention.result` of its arguments.

  The result joins, along the lanes, the attention output, the query array and the pooled maximum, each 1024 lanes wide. An index
  with lane `c` reads the first piece at `c` when `c < 1024`, the second at `c − 1024` when `c < 2048`, else the third at
  `c − 2048`; the other two coordinates are unchanged. Those are the three lane ranges of `Attention.resultAt`.
-/
import proofs.«165789_j10299331576088_2_alg».proof.Proof.RefStages

noncomputable section

namespace Cert.ReferenceIdeal.RefValue

open Cert.ReferenceIdeal Cert.ReferenceIdeal.Gen Cert.ReferenceIdeal.ReadP Idealize.ShloMosaic Idealize.ShloMosaic.ValueIdx Cert.Attention

/-- The coordinates off the joined axis are those of the piece's index. -/
theorem off_axis (b : Fin 16) (r : Fin 2048) (c : Fin 3072) (c' : Fin 1024) :
    ∀ a : Fin S16x2048x1024.rank, a.cast (rfl : S16x2048x1024.rank = S16x2048x3072.rank) ≠ (2 : Fin S16x2048x3072.rank) →
      ((ix3 b r c' : S16x2048x1024.Idx) a).val = ((ix3 b r c : S16x2048x3072.Idx) (a.cast rfl)).val := fun a ha => by
  match a with
  | ⟨0, _⟩ => rfl
  | ⟨1, _⟩ => rfl
  | ⟨2, _⟩ => exact absurd rfl ha

theorem reference_result (x0 x1 : Rows) (x2 : Mask) (x3 : Proj) :
    (val_main_v36 (F := Ideal) x0 x1 x2 x3 : S16x2048x3072.Idx → EReal) = result x0 x1 x2 x3 := by
  funext j
  obtain ⟨b, r, c, rfl⟩ : ∃ (b : Fin 16) (r : Fin 2048) (c : Fin 3072), j = ix3 b r c := ⟨j 0, j 1, j 2, eq_ix3 j⟩
  rw [result_apply]
  unfold val_main_v36
  by_cases h1 : c.val < 1024
  · rw [resultAt_low _ _ _ _ b r c h1, ← attended_lanes]
    exact concatenate_apply_piece (2 : Fin S16x2048x3072.rank) _ _ (ix3 b r c) 0 (by show (0 : ℕ) < 3; decide) S16x2048x1024 _ rfl rfl 0 rfl
      (ix3 b r (⟨c.val, h1⟩ : Fin 1024)) (off_axis b r c _) (Nat.zero_add _)
  · by_cases h2 : c.val < 2048
    · rw [resultAt_mid _ _ _ _ b r c h1 h2]
      exact concatenate_apply_piece (2 : Fin S16x2048x3072.rank) _ _ (ix3 b r c) 1 (by show (1 : ℕ) < 3; decide) S16x2048x1024 _ rfl rfl 1024 rfl
        (ix3 b r (⟨c.val - 1024, by omega⟩ : Fin 1024)) (off_axis b r c _) (by show 1024 + (c.val - 1024) = c.val; omega)
    · rw [resultAt_high _ _ _ _ b r c h2, ← pooled_lanes x1 x2 b r]
      exact concatenate_apply_piece (2 : Fin S16x2048x3072.rank) _ _ (ix3 b r c) 2 (by show (2 : ℕ) < 3; decide) S16x2048x1024 _ rfl rfl 2048 rfl
        (ix3 b r (⟨c.val - 2048, by have := c.isLt; omega⟩ : Fin 1024)) (off_axis b r c _) (by show 2048 + (c.val - 2048) = c.val; omega)

end Cert.ReferenceIdeal.RefValue

end
-- ==== Proof.lean ====
/-
  Masked attention with a pooled maximum: a fused kernel against its jnp reference, equal on the extended reals.

  For each of 16 batches, with values `V` (2048 keys × 1024 lanes), a key mask `μ`, and a shared projection `W`, every query row
  `q` is sent to three lane ranges: its attention output `∑ k softmax_k((q W) · V k / 10 − (1 − μ k) · 10¹⁰) · V k`, the row `q`
  itself, and the masked maximum over the keys `max_k (V k − (1 − μ k) · 10¹⁰)`, which does not depend on the row
  (`Attention.result`). The kernel walks a grid of 16 batches × 8 tiles of 256 query rows; at a batch's first tile it stores the
  batch's values and their masked maximum into two scratches carried across the tiles, and each tile's output block is the three
  lane ranges side by side. The reference computes whole arrays and joins three of them along the lanes.

  On the extended reals both are the same function of the arguments: a change of float format is the identity; a matrix product
  into a zero accumulator and the host's product are the same finite sum; a maximum reduction is a fold of `max` from `−∞` on
  both sides (the reference takes it once more against `−∞`, which changes nothing); a sum reduction from zero is the sum; the
  pooled maximum plus a zero array is itself. No step moves a factor across a sum or cancels anything, so the finiteness of the
  inputs is never used. The ideal pass rewrote nothing, so the idealized kernel is the kernel's own text read at the extended reals.
-/
import proofs.«165789_j10299331576088_2_alg».proof.Defs
import proofs.«165789_j10299331576088_2_alg».proof.Proof.Gen.Kernel
import proofs.«165789_j10299331576088_2_alg».proof.Proof.Gen.Kernel.Frame
import proofs.«165789_j10299331576088_2_alg».proof.Proof.Gen.KernelIdeal
import proofs.«165789_j10299331576088_2_alg».proof.Proof.Gen.KernelIdeal.Frame
import proofs.«165789_j10299331576088_2_alg».proof.Proof.Gen.ReferenceIdeal
import proofs.«165789_j10299331576088_2_alg».proof.Proof.Gen.Pre_finite_inputs
import proofs.«165789_j10299331576088_2_alg».proof.Proof.PointValues
import proofs.«165789_j10299331576088_2_alg».proof.Proof.RefResult
import Idealize.ShloMosaic.Adequacy
import Idealize.ShloMosaic.Init

noncomputable section

namespace Cert.Proof

open Idealize.ShloMosaic Idealize.ShloMosaic.TcCoe Idealize.SL.Sem

/-- Both programs run, and their argument arrays end unchanged. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments, the kernel's result array and the reference's are both `Attention.result` of them. -/
theorem algebraic : Cert.algebraic_KernelIdeal_ReferenceIdeal := by
  intro m ρ m' ρ' _ hagree
  refine ⟨fun c => Cert.Attention.result (Cert.KernelIdeal.Blocks.argQ m c) (Cert.KernelIdeal.Blocks.argV m c)
    (Cert.KernelIdeal.Blocks.argM m c) (Cert.KernelIdeal.Blocks.argW m c), Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  refine ((Cert.ReferenceIdeal.ReadP.val_main_v36_eq m' c).trans
    (Cert.ReferenceIdeal.RefValue.reference_result _ _ _ _)).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
